-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x256 : Shape := ⟨3, ![128, 512, 256]⟩
abbrev S512x512 : Shape := ⟨2, ![512, 512]⟩
abbrev S_ : Shape := ⟨0, ![]⟩

class Facts : Prop where
  bcast_S_S128x512x256 : S_.BroadcastsInDim S128x512x256 (![] : Fin 0 → Fin S128x512x256.rank)
  reducesTo_S128x512x256_S_d0_1_2 : S128x512x256.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S128x512x256 .f32) (main_arg1 : FVec F S512x512 .f32) : IVec S_ 1 :=
  let main_v0 : FVec F S128x512x256 .f32 := Host.absf main_arg0
  let main_cst : FVec F S_ .f32 := constant S_ .f32 0x7F800000#32
  let main_v1 : FVec F S128x512x256 .f32 := broadcastInDim S128x512x256 ![] bcast_S_S128x512x256 main_cst
  let main_v2 : IVec S128x512x256 1 := cmpf .olt main_v0 main_v1
  let main_c : IVec S_ 1 := constantI S_ 1 1#1
  let main_v3 : IVec S_ 1 := (fun x v => Host.reduce IntOp.andi x v reducesTo_S128x512x256_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S128x512x256 : Shape := ⟨3, ![128, 512, 256]⟩
abbrev S512x512 : Shape := ⟨2, ![512, 512]⟩
abbrev S128x1 : Shape := ⟨2, ![128, 1]⟩
abbrev S8x512x256 : Shape := ⟨3, ![8, 512, 256]⟩
abbrev S8x1 : Shape := ⟨2, ![8, 1]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S1x512x512 : Shape := ⟨3, ![1, 512, 512]⟩
abbrev S8 : Shape := ⟨1, ![8]⟩
abbrev S128 : Shape := ⟨1, ![128]⟩
abbrev S_ : Shape := ⟨0, ![]⟩

abbrev nBuf : Space → Nat
  | .hbm => 27
  | .vmem => 5
  | .smem => 0
  | _ => 0

abbrev bufTy : (tb : Table) → Fin (tcTables nBuf tb) → BufTy
  | .hbm, ⟨0, _⟩ => ⟨S128x512x256, .f32⟩
  | .hbm, ⟨1, _⟩ => ⟨S512x512, .f32⟩
  | .hbm, ⟨2, _⟩ => ⟨S128x1, .f32⟩
  | .hbm, ⟨3, _⟩ => ⟨S128, .f32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .i1⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .local _ .vmem, ⟨0, _⟩ => ⟨S8x512x256, .f32⟩
  | .local _ .vmem, ⟨1, _⟩ => ⟨S8x512x256, .f32⟩
  | .local _ .vmem, ⟨2, _⟩ => ⟨S512x512, .f32⟩
  | .local _ .vmem, ⟨3, _⟩ => ⟨S8x1, .f32⟩
  | .local _ .vmem, ⟨4, _⟩ => ⟨S8x1, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x512x256_S8x512x256_0_0_0 : ∀ a, (![0, 0, 0] : Fin 3 → Nat) a + S8x512x256.size a ≤ S8x512x256.size a
  h_S8x512x256 : 0 < S8x512x256.numel
  bitsLt_bf16_f32 : FTy.bits .bf16 < FTy.bits .f32
  reduces_S8x512x256_S8x512 : S8x512x256.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  iota_S512x512_d0_w32 : S512x512.Iotas .tc 32 [0]
  iota_S512x512_d1_w32 : S512x512.Iotas .tc 32 [1]
  natLt_1_32 : 1 < 32
  shapeCasts_S512x512_S1x512x512 : S512x512.ShapeCasts S1x512x512
  broadcasts_S1x512x512_S8x512x512 : S1x512x512.Broadcasts S8x512x512
  inb_S512x512_S512x512_0_0 : ∀ a, (![0, 0] : Fin 2 → Nat) a + S512x512.size a ≤ S512x512.size a
  h_S512x512 : 0 < S512x512.numel
  reduces_S8x512x512_S8x512 : S8x512x512.Reduces [2] S8x512
  reduces_S8x512_S8 : S8x512.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S128x1_S128 : S128x1.ShapeCasts S128
  bcast_S_S512x512 : S_.BroadcastsInDim S512x512 (![] : Fin 0 → Fin S512x512.rank)
  reducesTo_S512x512_S_d0_1 : S512x512.ReducesTo [0, 1] S_
  h_S_ : 0 < S_.numel
  bcast_S_S128 : S_.BroadcastsInDim S128 (![] : Fin 0 → Fin S128.rank)
  reducesTo_S128_S_d0 : S128.ReducesTo [0] S_
  dot_S8x512x256_S8x512x256_S8x512x512_2_2_1_1_0_0_wf : DotDims.WF S8x512x256 S8x512x256 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S128x512x256.size a
  hwx0_0 : ∀ i : grid0.Coords, EltTy.bits .f32 = 32 ∨ (Rect.block (s := S128x512x256) S8x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S128x1.size a
  hwx0_2 : ∀ i : grid0.Coords, EltTy.bits .f32 = 32 ∨ (Rect.block (s := S128x1) S8x1.size (cc0_transform_2 i) (hinb0_2 i)).WholeWords (EltTy.packing .f32)

variable [Facts₀]

def dot_S8x512x256_S8x512x256_S8x512x512_2_2_1_1_0_0 : DotDims S8x512x256 S8x512x256 S8x512x512 where
  lhsContracting := [2]
  rhsContracting := [2]
  lhsNonContracting := [1]
  rhsNonContracting := [1]
  lhsBatch := [0]
  rhsBatch := [0]
  wf := dot_S8x512x256_S8x512x256_S8x512x512_2_2_1_1_0_0_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512x256 : Shape := ⟨3, ![128, 512, 256]⟩
abbrev S512x512 : Shape := ⟨2, ![512, 512]⟩
abbrev S_ : Shape := ⟨0, ![]⟩
abbrev S128x512 : Shape := ⟨2, ![128, 512]⟩
abbrev S128x512x1 : Shape := ⟨3, ![128, 512, 1]⟩
abbrev S128x1x512 : Shape := ⟨3, ![128, 1, 512]⟩
abbrev S128x512x512 : Shape := ⟨3, ![128, 512, 512]⟩
abbrev S1x512x512 : Shape := ⟨3, ![1, 512, 512]⟩
abbrev S128 : Shape := ⟨1, ![128]⟩

abbrev nBuf : Space → Nat
  | .hbm => 86
  | .vmem => 0
  | .smem => 0
  | _ => 0

abbrev bufTy : (tb : Table) → Fin (tcTables nBuf tb) → BufTy
  | .hbm, ⟨0, _⟩ => ⟨S128x512x256, .f32⟩
  | .hbm, ⟨1, _⟩ => ⟨S512x512, .f32⟩
  | .hbm, ⟨2, _⟩ => ⟨S512x512, .i32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i1⟩
  | .hbm, ⟨8, _⟩ => ⟨S512x512, .f32⟩
  | .hbm, ⟨9, _⟩ => ⟨S128x512x256, .f32⟩
  | .hbm, ⟨10, _⟩ => ⟨S_, .f32⟩
  | .hbm, ⟨11, _⟩ => ⟨S128x512, .f32⟩
  | .hbm, ⟨12, _⟩ => ⟨S128x512x1, .f32⟩
  | .hbm, ⟨13, _⟩ => ⟨S128x1x512, .f32⟩
  | .hbm, ⟨14, _⟩ => ⟨S128x512x512, .f32⟩
  | .hbm, ⟨15, _⟩ => ⟨S128x512x512, .f32⟩
  | .hbm, ⟨16, _⟩ => ⟨S128x512x512, .f32⟩
  | .hbm, ⟨17, _⟩ => ⟨S128x512x512, .f32⟩
  | .hbm, ⟨18, _⟩ => ⟨S_, .f32⟩
  | .hbm, ⟨19, _⟩ => ⟨S128x512x512, .f32⟩
  | .hbm, ⟨20, _⟩ => ⟨S128x512x512, .f32⟩
  | .hbm, ⟨21, _⟩ => ⟨S128x512x512, .f32⟩
  | .hbm, ⟨22, _⟩ => ⟨S_, .f32⟩
  | .hbm, ⟨23, _⟩ => ⟨S128x512x512, .f32⟩
  | .hbm, ⟨24, _⟩ => ⟨S128x512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S1x512x512, .f32⟩
  | .hbm, ⟨29, _⟩ => ⟨S128x512x512, .f32⟩
  | .hbm, ⟨30, _⟩ => ⟨S128x512x512, .f32⟩
  | .hbm, ⟨31, _⟩ => ⟨S_, .f32⟩
  | .hbm, ⟨32, _⟩ => ⟨S128x512x512, .f32⟩
  | .hbm, ⟨33, _⟩ => ⟨S128x512x512, .i1⟩
  | .hbm, ⟨34, _⟩ => ⟨S_, .f32⟩
  | .hbm, ⟨35, _⟩ => ⟨S128x512x512, .f32⟩
  | .hbm, ⟨36, _⟩ => ⟨S128x512x512, .i1⟩
  | .hbm, ⟨37, _⟩ => ⟨S_, .f32⟩
  | .hbm, ⟨38, _⟩ => ⟨S_, .f32⟩
  | .hbm, ⟨39, _⟩ => ⟨S128x512x512, .f32⟩
  | .hbm, ⟨40, _⟩ => ⟨S128x512x512, .f32⟩
  | .hbm, ⟨41, _⟩ => ⟨S128x512x512, .f32⟩
  | .hbm, ⟨42, _⟩ => ⟨S_, .f32⟩
  | .hbm, ⟨43, _⟩ => ⟨S_, .f32⟩
  | .hbm, ⟨44, _⟩ => ⟨S128x512x512, .f32⟩
  | .hbm, ⟨45, _⟩ => ⟨S128x512x512, .f32⟩
  | .hbm, ⟨46, _⟩ => ⟨S_, .f32⟩
  | .hbm, ⟨47, _⟩ => ⟨S128x512x512, .f32⟩
  | .hbm, ⟨48, _⟩ => ⟨S128x512x512, .f32⟩
  | .hbm, ⟨49, _⟩ => ⟨S128x512x512, .f32⟩
  | .hbm, ⟨50, _⟩ => ⟨S_, .f32⟩
  | .hbm, ⟨51, _⟩ => ⟨S512x512, .f32⟩
  | .hbm, ⟨52, _⟩ => ⟨S512x512, .i1⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S1x512x512, .f32⟩
  | .hbm, ⟨63, _⟩ => ⟨S128x512x512, .f32⟩
  | .hbm, ⟨64, _⟩ => ⟨S128x512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S1x512x512, .f32⟩
  | .hbm, ⟨70, _⟩ => ⟨S128x512x512, .f32⟩
  | .hbm, ⟨71, _⟩ => ⟨S128x512x512, .f32⟩
  | .hbm, ⟨72, _⟩ => ⟨S1x512x512, .f32⟩
  | .hbm, ⟨73, _⟩ => ⟨S128x512x512, .f32⟩
  | .hbm, ⟨74, _⟩ => ⟨S128x512x512, .f32⟩
  | .hbm, ⟨75, _⟩ => ⟨S128x512x512, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S_, .f32⟩
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  reducesTo_S128x512x256_S128x512_d2 : S128x512x256.ReducesTo [2] S128x512
  h_S_ : 0 < S_.numel
  bcast_S128x512_S128x512x1_0_1 : S128x512.BroadcastsInDim S128x512x1 (![0, 1] : Fin 2 → Fin S128x512x1.rank)
  bcast_S128x512_S128x1x512_0_2 : S128x512.BroadcastsInDim S128x1x512 (![0, 2] : Fin 2 → Fin S128x1x512.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  reducesTo_S512x512_S_d0_1 : S512x512.ReducesTo [0, 1] S_
  reducesTo_S128x512x512_S128_d1_2 : S128x512x512.ReducesTo [1, 2] S128
  bcast_S_S128 : S_.BroadcastsInDim S128 (![] : Fin 0 → Fin S128.rank)
  reducesTo_S128_S_d0 : S128.ReducesTo [0] S_
  dot_S128x512x256_S128x512x256_S128x512x512_2_2_1_1_0_0_wf : DotDims.WF S128x512x256 S128x512x256 S128x512x512 [2] [2] [1] [1] [0] [0]

variable [Facts₀]

def dot_S128x512x256_S128x512x256_S128x512x512_2_2_1_1_0_0 : DotDims S128x512x256 S128x512x256 S128x512x512 where
  lhsContracting := [2]
  rhsContracting := [2]
  lhsNonContracting := [1]
  rhsNonContracting := [1]
  lhsBatch := [0]
  rhsBatch := [0]
  wf := dot_S128x512x256_S128x512x256_S128x512x512_2_2_1_1_0_0_wf

class Facts : Prop extends Facts₀ where

variable [Facts]
-- ==== Proof.Spec.lean ====
/-
  What both programs compute for ONE batch item, over plain finite index types.

  A batch item is 512 vectors of dimension 256, `r i k`; `s` is the 512 × 512 similarity matrix. With
  `n2 i = Σ_k r i k ²` and `gram i j = Σ_k r i k · r j k`, the clamped squared distance off the diagonal is
  `sqd i j = max (n2 i + n2 j − 2 · gram i j) 0 · (1 − eye i j)`, the distance its guarded square root
  (`0` where `sqd` is not positive), the kernel matrix `kd i j = exp (−dist i j) · (1 − eye i j)`, the weight
  `wgt i j` the indicator of `s i j > 0`, and the item's value the Frobenius norm
  `numer = √ Σ_i Σ_j (wgt i j · (kd i j − (s i j − 1 · eye i j)))²`.
  Every operation is the exact one on the extended reals; the float constants stay the words the
  programs print (the same word on both sides is never evaluated).
-/
import Idealize.ShloMosaic.PureOps.Ideal
import Idealize.ShloMosaic.PureOps.Ideal.Laws
import Idealize.ShloMosaic.Lib.ValueIdx

noncomputable section

namespace Cert.GramLoss

open Idealize.ShloMosaic

/-- A one-bit word as the extended real `0` or `1`. -/
def bit (b : BitVec 1) : EReal := ((b.toNat : ℝ) : EReal)

/-- The indicator of the diagonal: the comparison of the two coordinates as 32-bit words. -/
def eye (i j : Fin 512) : EReal :=
  bit (IntOp.cmpi .eq (BitVec.ofNat 32 i.val) (BitVec.ofNat 32 j.val))

/-- The squared norm of row `i`. -/
def n2 (r : Fin 512 → Fin 256 → EReal) (i : Fin 512) : EReal := ∑ k : Fin 256, r i k * r i k

/-- The Gram matrix of the rows. -/
def gram (r : Fin 512 → Fin 256 → EReal) (i j : Fin 512) : EReal := ∑ k : Fin 256, r i k * r j k

/-- The squared distance of rows `i` and `j`, clamped at zero and zeroed on the diagonal. -/
def sqd (r : Fin 512 → Fin 256 → EReal) (i j : Fin 512) : EReal :=
  max ((n2 r i + n2 r j) - Ideal.ofBits .f32 0x40000000#32 * gram r i j) (Ideal.ofBits .f32 0x00000000#32)
    * (Ideal.ofBits .f32 0x3F800000#32 - eye i j)

/-- The distance: the square root where the squared distance is positive (taken of `1` elsewhere and discarded), else `0`. -/
def dist (r : Fin 512 → Fin 256 → EReal) (i j : Fin 512) : EReal :=
  Scalar.select (Ideal.cmp .ogt (sqd r i j) (Ideal.ofBits .f32 0x00000000#32))
    (Ideal.sqrt (Scalar.select (Ideal.cmp .ogt (sqd r i j) (Ideal.ofBits .f32 0x00000000#32)) (sqd r i j)
      (Ideal.ofBits .f32 0x3F800000#32)))
    (Ideal.ofBits .f32 0x00000000#32)

/-- The exponential kernel of the distance, zeroed on the diagonal. -/
def kd (r : Fin 512 → Fin 256 → EReal) (i j : Fin 512) : EReal :=
  Ideal.exp (Ideal.ofBits .f32 0xBF800000#32 * dist r i j) * (Ideal.ofBits .f32 0x3F800000#32 - eye i j)

/-- The weight: the indicator of a positive similarity. -/
def wgt (s : Fin 512 → Fin 512 → EReal) (i j : Fin 512) : EReal :=
  bit (Ideal.cmp .ogt (s i j) (Ideal.ofBits .f32 0x00000000#32))

/-- The weighted difference of the kernel matrix and the similarity matrix less the identity. -/
def diff (r : Fin 512 → Fin 256 → EReal) (s : Fin 512 → Fin 512 → EReal) (i j : Fin 512) : EReal :=
  wgt s i j * (kd r i j - (s i j - Ideal.ofBits .f32 0x3F800000#32 * eye i j))

/-- Its square. -/
def cell (r : Fin 512 → Fin 256 → EReal) (s : Fin 512 → Fin 512 → EReal) (i j : Fin 512) : EReal :=
  diff r s i j * diff r s i j

/-- The item's value: the Frobenius norm of the weighted difference, rows summed first. -/
def numer (r : Fin 512 → Fin 256 → EReal) (s : Fin 512 → Fin 512 → EReal) : EReal :=
  Ideal.sqrt (∑ i : Fin 512, ∑ j : Fin 512, cell r s i j)

/-- A one-bit word widened to 32 bits and read signed is the word read unsigned: both are `0` or `1`. -/
theorem toInt_setWidth_bit (b : BitVec 1) : ((b.setWidth 32).toInt : ℝ) = (b.toNat : ℝ) := by
  have h : ∀ b : BitVec 1, (b.setWidth 32).toInt = (b.toNat : ℤ) := by decide
  rw [h b]; norm_cast

/-- So the vector unit's signed conversion of the widened bit is `bit`. -/
theorem sitofp_setWidth_bit (b : BitVec 1) :
    FloatOps.sitofp (F := Ideal) .f32 (b.setWidth 32) = bit b := by
  show (((b.setWidth 32).toInt : ℝ) : EReal) = ((b.toNat : ℝ) : EReal)
  rw [toInt_setWidth_bit]

/-- And the host's unsigned conversion of the bit is `bit`. -/
theorem uitofp_bit (b : BitVec 1) : FloatOps.uitofp (F := Ideal) .f32 b = bit b := rfl

/-- The sum over all pairs `(i, j)`, listed as one finite type, is the iterated sum. -/
theorem sum_pairs (f : Fin 512 → Fin 512 → EReal) :
    ∑ p : Fin 512 × Fin 512, f p.1 p.2 = ∑ i : Fin 512, ∑ j : Fin 512, f i j :=
  Fintype.sum_prod_type' f

end Cert.GramLoss

end
-- ==== Proof.Tail.lean ====
/-
  The host lines both programs end with, as one function.

  From the column `n` of per-item values and the similarity matrix `s`: the indicator `w` of `s > 0`, the identity
  `e` (the comparison of the two coordinate iotas), the Frobenius norm `√ Σ (w − e)²`, and the result
  `Σ_b (2 · n b) / norm`. Both programs apply exactly these operations, in this order, to their per-item
  values, so the certificate only has to show those values equal; the function is never opened. It is cut in
  three pieces — the matrix `w − e`, the norm of a matrix, the scaled sum of a column — one per stretch of
  host lines.
-/
import proofs.«122986_j29343216566713_2_alg».proof.Proof.Spec
import Idealize.ShloMosaic.PureOps
import Idealize.ShloMosaic.PureOps.Ideal
import Idealize.ShloMosaic.Lib.ValueIdx

noncomputable section

namespace Cert.GramLoss

open Idealize.ShloMosaic Idealize.ShloMosaic.ValueIdx

abbrev T0 : Shape := ⟨0, ![]⟩
abbrev T128 : Shape := ⟨1, ![128]⟩
abbrev T512x512 : Shape := ⟨2, ![512, 512]⟩

/-- The weight matrix less the identity: the indicator of `s > 0` minus the indicator of the diagonal. -/
def offDiag (hb2 : T0.BroadcastsInDim T512x512 (![] : Fin 0 → Fin T512x512.rank)) (s : FVec Ideal T512x512 .f32) :
    FVec Ideal T512x512 .f32 :=
  subf (uitofp .f32 (cmpf .ogt s (broadcastInDim T512x512 ![] hb2 (constant (F := Ideal) T0 .f32 0x00000000#32))))
    (uitofp .f32 (cmpi .eq (addi (iotaInDim T512x512 32 0) (broadcastInDim T512x512 ![] hb2 (constantI T0 32 0#32)))
      (iotaInDim T512x512 32 1)))

/-- The Frobenius norm of a matrix: the square root of the sum of its squares. -/
def frob (hr2 : T512x512.ReducesTo [0, 1] T0) (h0 : 0 < T0.numel) (d : FVec Ideal T512x512 .f32) : FVec Ideal T0 .f32 :=
  Host.sqrt (F := Ideal)
    (Host.reduceAdd (F := Ideal) (mulf d d) (constant (F := Ideal) T0 .f32 0x00000000#32) hr2 h0)

/-- Twice each entry of the column over the scalar `nrm`, summed over the column. -/
def scaledSum (hb1 : T0.BroadcastsInDim T128 (![] : Fin 0 → Fin T128.rank)) (hr1 : T128.ReducesTo [0] T0) (h0 : 0 < T0.numel)
    (n : FVec Ideal T128 .f32) (nrm : FVec Ideal T0 .f32) : FVec Ideal T0 .f32 :=
  Host.reduceAdd (F := Ideal)
    (Host.divf (F := Ideal)
      (mulf (broadcastInDim T128 ![] hb1 (constant (F := Ideal) T0 .f32 0x40000000#32)) n)
      (broadcastInDim T128 ![] hb1 nrm))
    (constant (F := Ideal) T0 .f32 0x00000000#32) hr1 h0

/-- Twice each item's value over the norm of `offDiag s`, summed over the items. -/
def tail (hb2 : T0.BroadcastsInDim T512x512 (![] : Fin 0 → Fin T512x512.rank))
    (hb1 : T0.BroadcastsInDim T128 (![] : Fin 0 → Fin T128.rank))
    (hr2 : T512x512.ReducesTo [0, 1] T0) (hr1 : T128.ReducesTo [0] T0) (h0 : 0 < T0.numel)
    (n : FVec Ideal T128 .f32) (s : FVec Ideal T512x512 .f32) : FVec Ideal T0 .f32 :=
  scaledSum hb1 hr1 h0 n (frob hr2 h0 (offDiag hb2 s))

/-- The column of per-item values: entry `b` is the item's value of rows `r`, `k ↦ a0[b, r, k]` and of the matrix `a1`. -/
def column (a0 : (⟨3, ![128, 512, 256]⟩ : Shape).Idx → EReal) (a1 : T512x512.Idx → EReal) : T128.Idx → EReal :=
  fun b => numer (fun r k => a0 (ix3 (⟨(b 0).val, (b 0).isLt⟩ : Fin 128) r k)) (fun r s => a1 (ix2 r s))

end Cert.GramLoss

end
-- ==== Proof.LibKeepdims.lean ====
/-
  Library-only lemmas: the unit axes a `keepdims` sum or a `[:, :, None]` / `[:, None, :]` index adds, read at an index
  given by coordinates, for any element type and any extents.

  * a shape cast that appends or inserts a unit axis — `[a, b] → [a, b, 1]`, `[a, b] → [a, 1, b]`, `[a] → [a, 1]` — reads
    the operand at the remaining coordinates (`shapeCast_ab_ab1_apply`, `shapeCast_ab_a1b_apply`, `shapeCast_a_a1_apply`);
  * a broadcast along a unit axis of a rank-3 array — `[a, b, 1] → [a, b, c]`, `[a, 1, c] → [a, b, c]`,
    `[1, b, c] → [a, b, c]` — reads the operand with `0` on that axis (`broadcastTo_ab1_abc_apply`,
    `broadcastTo_a1c_abc_apply`, `broadcastTo_1bc_abc_apply`); the other two extents must not themselves be `1`.
  Indices are built with `ix1` / `ix2` / `ix3` from coordinates of literal `Fin` types.
-/
import Idealize.ShloMosaic.Lib.Pipeline.Value
import Idealize.ShloMosaic.Lib.ValueIdx

namespace Cert.Lib.Keepdims

open Idealize.ShloMosaic Idealize.ShloMosaic.ValueIdx

variable {α : Type}

/-- An `[a, b]` array cast to `[a, b, 1]` reads, at `(p, i, u)`, the operand at `(p, i)`. -/
theorem shapeCast_ab_ab1_apply {a b : ℕ} (x : (⟨2, ![a, b]⟩ : Shape).Idx → α)
    (h : (⟨2, ![a, b]⟩ : Shape).ShapeCasts ⟨3, ![a, b, 1]⟩) (p : Fin a) (i : Fin b) (u : Fin 1) :
    shapeCast ⟨3, ![a, b, 1]⟩ x h (ix3 p i u) = x (ix2 p i) :=
  shapeCast_apply x h _ _ (by
    have hu : u.val = 0 := by omega
    rw [Shape.rowMajor_val_three, Shape.rowMajor_val_two]
    show p.val * b + i.val = (p.val * b + i.val) * 1 + u.val
    rw [hu, Nat.mul_one, Nat.add_zero])

/-- An `[a, b]` array cast to `[a, 1, b]` reads, at `(p, u, j)`, the operand at `(p, j)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

/-- An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, b, 1]` array broadcast to `[a, b, c]` (with `a`, `b` not `1`) reads, at `(p, i, j)`, the operand at `(p, i, 0)`. -/
theorem broadcastTo_ab1_abc_apply {a b c : ℕ} (ha : a ≠ 1) (hb : b ≠ 1) (x : (⟨3, ![a, b, 1]⟩ : Shape).Idx → α)
    (h : (⟨3, ![a, b, 1]⟩ : Shape).Broadcasts ⟨3, ![a, b, c]⟩) (p : Fin a) (i : Fin b) (j : Fin c) :
    broadcastTo ⟨3, ![a, b, c]⟩ x h (ix3 p i j) = x (ix3 p i (0 : Fin 1)) := by
  refine broadcastTo_apply x h (ix3 p i j) (ix3 p i (0 : Fin 1)) fun ax => ?_
  match ax with
  | ⟨0, _⟩ =>
    show p.val = if a = 1 then 0 else p.val
    rw [if_neg ha]
  | ⟨1, _⟩ =>
    show i.val = if b = 1 then 0 else i.val
    rw [if_neg hb]
  | ⟨2, _⟩ =>
    show 0 = if (1 : ℕ) = 1 then 0 else j.val
    rw [if_pos rfl]

/-- An `[a, 1, c]` array broadcast to `[a, b, c]` (with `a`, `c` not `1`) reads, at `(p, i, j)`, the operand at `(p, 0, j)`. -/
theorem broadcastTo_a1c_abc_apply {a b c : ℕ} (ha : a ≠ 1) (hc : c ≠ 1) (x : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ x h (ix3 p i j) = x (ix3 p (0 : Fin 1) j) := by
  refine broadcastTo_apply x h (ix3 p i j) (ix3 p (0 : Fin 1) j) fun ax => ?_
  match ax with
  | ⟨0, _⟩ =>
    show p.val = if a = 1 then 0 else p.val
    rw [if_neg ha]
  | ⟨1, _⟩ =>
    show 0 = if (1 : ℕ) = 1 then 0 else i.val
    rw [if_pos rfl]
  | ⟨2, _⟩ =>
    show j.val = if c = 1 then 0 else j.val
    rw [if_neg hc]

/-- A `[1, b, c]` array broadcast to `[a, b, c]` (with `b`, `c` not `1`) reads, at `(p, i, j)`, the operand at `(0, i, j)`. -/
theorem broadcastTo_1bc_abc_apply {a b c : ℕ} (hb : b ≠ 1) (hc : c ≠ 1) (x : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ x h (ix3 p i j) = x (ix3 (0 : Fin 1) i j) := by
  refine broadcastTo_apply x h (ix3 p i j) (ix3 (0 : Fin 1) i j) fun ax => ?_
  match ax with
  | ⟨0, _⟩ =>
    show 0 = if (1 : ℕ) = 1 then 0 else p.val
    rw [if_pos rfl]
  | ⟨1, _⟩ =>
    show i.val = if b = 1 then 0 else i.val
    rw [if_neg hb]
  | ⟨2, _⟩ =>
    show j.val = if c = 1 then 0 else j.val
    rw [if_neg hc]

end Cert.Lib.Keepdims
-- ==== Proof.KernelItem.lean ====
/-
  The kernel body's stored value at one row of its [8, 1] block is the item's value `numer` of the
  block's rows.
-/
import proofs.«122986_j29343216566713_2_alg».proof.Proof.Spec
import proofs.«122986_j29343216566713_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«122986_j29343216566713_2_alg».proof.Proof.LibKeepdims

noncomputable section

namespace Cert.GramLoss.KernelItem

open Idealize.ShloMosaic Idealize.ShloMosaic.ValueIdx Cert.KernelIdeal Cert.KernelIdeal.Gen Cert.Lib.Keepdims

/-! ## The three sums, each over one axis, read at an index given by coordinates -/

/-- The sum over the last axis of an `[8, 512, 256]` array, at `(p, i)`, is `∑ k` of the array at `(p, i, k)`. -/
theorem sum_axis2_256 (v : FVec Ideal S8x512x256 .f32) (h : S8x512x256.Reduces [2] S8x512)
    (hφ : FTy.f32 = FTy.f32 ∨ FTy.f32 = FTy.bf16) (hacc : (0x00000000#32 : BitVec 32) = 0x00000000#32) (p : Fin 8) (i : Fin 512) :
    multiReduction (F := Ideal) .add [2] S8x512 v 0x00000000#32 h hφ hacc (ix2 p i) = ∑ k : Fin 256, v (ix3 p i k) := by
  refine (Ideal.multiReduction_add_single v 0x00000000#32 h hφ hacc (ix2 p i)).trans ?_
  refine Finset.sum_congr rfl fun k _ => congrArg v ?_
  funext c
  refine Fin.ext ?_
  match c with
  | ⟨0, _⟩ => rfl
  | ⟨1, _⟩ => rfl
  | ⟨2, _⟩ => rfl

/-- The sum over the last axis of an `[8, 512, 512]` array, at `(p, i)`, is `∑ j` of the array at `(p, i, j)`. -/
theorem sum_axis2_512 (v : FVec Ideal S8x512x512 .f32) (h : S8x512x512.Reduces [2] S8x512)
    (hφ : FTy.f32 = FTy.f32 ∨ FTy.f32 = FTy.bf16) (hacc : (0x00000000#32 : BitVec 32) = 0x00000000#32) (p : Fin 8) (i : Fin 512) :
    multiReduction (F := Ideal) .add [2] S8x512 v 0x00000000#32 h hφ hacc (ix2 p i) = ∑ j : Fin 512, v (ix3 p i j) := by
  refine (Ideal.multiReduction_add_single v 0x00000000#32 h hφ hacc (ix2 p i)).trans ?_
  refine Finset.sum_congr rfl fun k _ => congrArg v ?_
  funext c
  refine Fin.ext ?_
  match c with
  | ⟨0, _⟩ => rfl
  | ⟨1, _⟩ => rfl
  | ⟨2, _⟩ => rfl

/-- The sum over the last axis of an `[8, 512]` array, at `p`, is `∑ i` of the array at `(p, i)`. -/
theorem sum_axis1_512 (v : FVec Ideal S8x512 .f32) (h : S8x512.Reduces [1] S8)
    (hφ : FTy.f32 = FTy.f32 ∨ FTy.f32 = FTy.bf16) (hacc : (0x00000000#32 : BitVec 32) = 0x00000000#32) (p : Fin 8) :
    multiReduction (F := Ideal) .add [1] S8 v 0x00000000#32 h hφ hacc (ix1 p) = ∑ i : Fin 512, v (ix2 p i) := by
  refine (Ideal.multiReduction_add_single v 0x00000000#32 h hφ hacc (ix1 p)).trans ?_
  refine Finset.sum_congr rfl fun k _ => congrArg v ?_
  funext c
  refine Fin.ext ?_
  match c with
  | ⟨0, _⟩ => rfl
  | ⟨1, _⟩ => rfl

/-! ## The batched product of the block with itself, read at an index given by coordinates

The dimension numbers: batch axis `0` on both sides, contracted axis `2` on both sides, so the result at
`(p, i, j)` pairs the left operand's row `(p, i, ·)` with the right operand's row `(p, j, ·)`. -/

theorem dot_lhs_0 (i : S8x512x512.Idx) (q : dot_S8x512x256_S8x512x256_S8x512x512_2_2_1_1_0_0.contr.Idx) :
    (dot_S8x512x256_S8x512x256_S8x512x512_2_2_1_1_0_0.lhsIdx i q 0).val = (i 0).val := by
  unfold DotDims.lhsIdx
  rw [dif_pos (show (0 : Fin S8x512x256.rank) ∈ dot_S8x512x256_S8x512x256_S8x512x512_2_2_1_1_0_0.lhsBatch by decide)]
  rfl
theorem dot_lhs_1 (i : S8x512x512.Idx) (q : dot_S8x512x256_S8x512x256_S8x512x512_2_2_1_1_0_0.contr.Idx) :
    (dot_S8x512x256_S8x512x256_S8x512x512_2_2_1_1_0_0.lhsIdx i q 1).val = (i 1).val := by
  unfold DotDims.lhsIdx
  rw [dif_neg (show ¬(1 : Fin S8x512x256.rank) ∈ dot_S8x512x256_S8x512x256_S8x512x512_2_2_1_1_0_0.lhsBatch by decide), dif_pos (show (1 : Fin S8x512x256.rank) ∈ dot_S8x512x256_S8x512x256_S8x512x512_2_2_1_1_0_0.lhsNonContracting by decide)]
  rfl
theorem dot_lhs_2 (i : S8x512x512.Idx) (q : dot_S8x512x256_S8x512x256_S8x512x512_2_2_1_1_0_0.contr.Idx) :
    (dot_S8x512x256_S8x512x256_S8x512x512_2_2_1_1_0_0.lhsIdx i q 2).val = (q ⟨0, by decide⟩).val :=
  dot_S8x512x256_S8x512x256_S8x512x512_2_2_1_1_0_0.lhsIdx_val_of_single rfl i q
theorem dot_rhs_0 (i : S8x512x512.Idx) (q : dot_S8x512x256_S8x512x256_S8x512x512_2_2_1_1_0_0.contr.Idx) :
    (dot_S8x512x256_S8x512x256_S8x512x512_2_2_1_1_0_0.rhsIdx i q 0).val = (i 0).val := by
  unfold DotDims.rhsIdx
  rw [dif_pos (show (0 : Fin S8x512x256.rank) ∈ dot_S8x512x256_S8x512x256_S8x512x512_2_2_1_1_0_0.rhsBatch by decide)]
  rfl
theorem dot_rhs_1 (i : S8x512x512.Idx) (q : dot_S8x512x256_S8x512x256_S8x512x512_2_2_1_1_0_0.contr.Idx) :
    (dot_S8x512x256_S8x512x256_S8x512x512_2_2_1_1_0_0.rhsIdx i q 1).val = (i 2).val := by
  unfold DotDims.rhsIdx
  rw [dif_neg (show ¬(1 : Fin S8x512x256.rank) ∈ dot_S8x512x256_S8x512x256_S8x512x512_2_2_1_1_0_0.rhsBatch by decide), dif_pos (show (1 : Fin S8x512x256.rank) ∈ dot_S8x512x256_S8x512x256_S8x512x512_2_2_1_1_0_0.rhsNonContracting by decide)]
  rfl
theorem dot_rhs_2 (i : S8x512x512.Idx) (q : dot_S8x512x256_S8x512x256_S8x512x512_2_2_1_1_0_0.contr.Idx) :
    (dot_S8x512x256_S8x512x256_S8x512x512_2_2_1_1_0_0.rhsIdx i q 2).val = (q ⟨0, by decide⟩).val :=
  dot_S8x512x256_S8x512x256_S8x512x512_2_2_1_1_0_0.rhsIdx_val_of_single rfl i q

/-- The product into the zero accumulator, at `(p, i, j)`, is `∑ k` of the left operand at `(p, i, k)` times the right
    operand at `(p, j, k)`. -/
theorem matmul_ix3 {φ₁ φ₂ : FTy} (a : FVec Ideal S8x512x256 φ₁) (b : FVec Ideal S8x512x256 φ₂) (p : Fin 8) (i j : Fin 512) :
    matmul (F := Ideal) dot_S8x512x256_S8x512x256_S8x512x512_2_2_1_1_0_0 none a b (constant S8x512x512 .f32 0x00000000#32) (ix3 p i j)
      = ∑ k : Fin 256, a (ix3 p i k) * b (ix3 p j k) := by
  simp only [matmul]
  rw [Ideal.matmul_constant_zero_apply, ← Equiv.sum_comp (ValueIdx.contrEquiv1 dot_S8x512x256_S8x512x256_S8x512x512_2_2_1_1_0_0 256 rfl rfl).symm]
  refine Finset.sum_congr rfl fun k _ => ?_
  have hk := ValueIdx.contrEquiv1_symm_val dot_S8x512x256_S8x512x256_S8x512x512_2_2_1_1_0_0 256 rfl rfl k
  have el : dot_S8x512x256_S8x512x256_S8x512x512_2_2_1_1_0_0.lhsIdx (ix3 p i j) ((ValueIdx.contrEquiv1 dot_S8x512x256_S8x512x256_S8x512x512_2_2_1_1_0_0 256 rfl rfl).symm k) = ix3 p i k := funext fun c => Fin.ext (by
    match c with
    | ⟨0, _⟩ => exact dot_lhs_0 _ _
    | ⟨1, _⟩ => exact dot_lhs_1 _ _
    | ⟨2, _⟩ => exact (dot_lhs_2 _ _).trans hk)
  have er : dot_S8x512x256_S8x512x256_S8x512x512_2_2_1_1_0_0.rhsIdx (ix3 p i j) ((ValueIdx.contrEquiv1 dot_S8x512x256_S8x512x256_S8x512x512_2_2_1_1_0_0 256 rfl rfl).symm k) = ix3 p j k := funext fun c => Fin.ext (by
    match c with
    | ⟨0, _⟩ => exact dot_rhs_0 _ _
    | ⟨1, _⟩ => exact dot_rhs_1 _ _
    | ⟨2, _⟩ => exact (dot_rhs_2 _ _).trans hk)
  rw [el, er]

/-! ## The literal shapes' unit axes -/

section Literal
variable {α : Type}

/-- The row norms as a column: `[8, 512] → [8, 512, 1]`, at `(p, i, u)`, is the operand at `(p, i)`. -/
theorem cast_col (x : S8x512.Idx → α) (h : S8x512.ShapeCasts S8x512x1) (p : Fin 8) (i : Fin 512) (u : Fin 1) :
    shapeCast S8x512x1 x h (ix3 p i u) = x (ix2 p i) := shapeCast_ab_ab1_apply x h p i u
/-- The row norms as a row: `[8, 512] → [8, 1, 512]`, at `(p, u, j)`, is the operand at `(p, j)`. -/
theorem cast_row (x : S8x512.Idx → α) (h : S8x512.ShapeCasts S8x1x512) (p : Fin 8) (u : Fin 1) (j : Fin 512) :
    shapeCast S8x1x512 x h (ix3 p u j) = x (ix2 p j) := shapeCast_ab_a1b_apply x h p u j
/-- A matrix as a one-item stack: `[512, 512] → [1, 512, 512]`, at `(u, i, j)`, is the operand at `(i, j)`. -/
theorem cast_mat (x : S512x512.Idx → α) (h : S512x512.ShapeCasts S1x512x512) (u : Fin 1) (i j : Fin 512) :
    shapeCast S1x512x512 x h (ix3 u i j) = x (ix2 i j) := shapeCast_ab_1ab_apply x h u i j
/-- The item values as a column: `[8] → [8, 1]`, at `(p, u)`, is the operand at `p`. -/
theorem cast_out (x : S8.Idx → α) (h : S8.ShapeCasts S8x1) (p : Fin 8) (u : Fin 1) :
    shapeCast S8x1 x h (ix2 p u) = x (ix1 p) := shapeCast_a_a1_apply x h p u
/-- The column repeated along the last axis. -/
theorem bcast_col (x : S8x512x1.Idx → α) (h : S8x512x1.Broadcasts S8x512x512) (p : Fin 8) (i j : Fin 512) :
    broadcastTo S8x512x512 x h (ix3 p i j) = x (ix3 p i (0 : Fin 1)) :=
  broadcastTo_ab1_abc_apply (by decide) (by decide) x h p i j
/-- The row repeated along the middle axis. -/
theorem bcast_row (x : S8x1x512.Idx → α) (h : S8x1x512.Broadcasts S8x512x512) (p : Fin 8) (i j : Fin 512) :
    broadcastTo S8x512x512 x h (ix3 p i j) = x (ix3 p (0 : Fin 1) j) :=
  broadcastTo_a1c_abc_apply (by decide) (by decide) x h p i j
/-- The one matrix repeated for every item. -/
theorem bcast_mat (x : S1x512x512.Idx → α) (h : S1x512x512.Broadcasts S8x512x512) (p : Fin 8) (i j : Fin 512) :
    broadcastTo S8x512x512 x h (ix3 p i j) = x (ix3 (0 : Fin 1) i j) :=
  broadcastTo_1bc_abc_apply (by decide) (by decide) x h p i j

end Literal

/-- A square root at an index is the square root of the element. -/
theorem sqrt_apply {s : Shape} {φ : FTy} (a : FVec Ideal s φ) (i : s.Idx) : sqrt a i = Ideal.sqrt (a i) := rfl
/-- An exponential at an index is the exponential of the element. -/
theorem exp_apply {s : Shape} {φ : FTy} (a : FVec Ideal s φ) (i : s.Idx) : exp a i = Ideal.exp (a i) := rfl
/-- An integer comparison at an index compares the elements. -/
theorem cmpi_apply {s : Shape} {w : ℕ} (pr : CmpIPredicate) (a b : IVec s w) (i : s.Idx) :
    cmpi pr a b i = IntOp.cmpi pr (a i) (b i) := rfl

/-! ## The diagonal's indicator -/

/-- The comparison of the two coordinate arrays, widened and converted, is `eye`. -/
theorem eye_apply (i j : Fin 512) : k0_pay2 (F := Ideal) (ix2 i j) = GramLoss.eye i j := by
  unfold k0_pay2
  simp only [sitofp_apply, extui_apply, cmpi_apply, GramLoss.sitofp_setWidth_bit]
  rw [iota_single_apply, iota_single_apply]
  rfl

/-! ## The kernel matrix of one item -/

/-- The squared norms: the sum over the last axis of the block's squares, at `(p, i)`, is `n2` of item `p`'s row `i`. -/
theorem n2_apply (x0 : FVec Ideal S8x512x256 .f32) (h : S8x512x256.Reduces [2] S8x512)
    (hφ : FTy.f32 = FTy.f32 ∨ FTy.f32 = FTy.bf16) (hacc : (0x00000000#32 : BitVec 32) = 0x00000000#32) (p : Fin 8) (i : Fin 512) :
    multiReduction (F := Ideal) .add [2] S8x512 (mulf x0 x0) 0x00000000#32 h hφ hacc (ix2 p i)
      = GramLoss.n2 (fun i k => x0 (ix3 p i k)) i :=
  sum_axis2_256 (mulf x0 x0) h hφ hacc p i

/-- The Gram matrix: the block's product with itself, at `(p, i, j)`, is `gram` of item `p`'s rows `i` and `j`. -/
theorem gram_apply (x0 : FVec Ideal S8x512x256 .f32) (hb : FTy.bits .bf16 < FTy.bits .f32) (p : Fin 8) (i j : Fin 512) :
    matmul (F := Ideal) dot_S8x512x256_S8x512x256_S8x512x512_2_2_1_1_0_0 none (truncf .bf16 x0 hb) (truncf .bf16 x0 hb)
        (constant S8x512x512 .f32 0x00000000#32) (ix3 p i j)
      = GramLoss.gram (fun i k => x0 (ix3 p i k)) i j :=
  matmul_ix3 (truncf .bf16 x0 hb) (truncf .bf16 x0 hb) p i j

/-- The kernel body's matrix at `(p, i, j)`: squared norms plus squared norms less twice the Gram matrix, clamped, zeroed on
    the diagonal, its guarded root negated and exponentiated, zeroed on the diagonal again, is `kd` of item `p`'s rows at `(i, j)`. -/
theorem pay3_apply (x0 : FVec Ideal S8x512x256 .f32) (p : Fin 8) (i j : Fin 512) :
    k0_pay3 (F := Ideal) x0 (ix3 p i j) = GramLoss.kd (fun i k => x0 (ix3 p i k)) i j := by
  unfold k0_pay3
  simp only [mulf_apply, addf_apply, subf_apply, maximumf_apply, broadcast_apply, cmpf_apply, select_apply,
    sqrt_apply, exp_apply, bcast_col, bcast_row, bcast_mat, cast_col, cast_row, cast_mat, n2_apply, gram_apply,
    eye_apply]
  rw [n2_apply, n2_apply]
  rfl

/-! ## The weighted difference, its square, the two sums and the root -/

/-- The stored value at row `p`, over any four operands: the root of the sum over `i` then `j` of the square of the fourth
    operand's bit times the second operand's difference from the third less one times the first. -/
theorem pay1_apply (v17 : FVec Ideal S512x512 .f32) (v39 : FVec Ideal S8x512x512 .f32) (v40 : FVec Ideal S512x512 .f32)
    (v42 : IVec S512x512 1) (p : Fin 8) (u : Fin 1) :
    k0_pay1 (F := Ideal) v17 v39 v40 v42 (ix2 p u)
      = Ideal.sqrt (∑ i : Fin 512, ∑ j : Fin 512,
          (GramLoss.bit (v42 (ix2 i j)) * (v39 (ix3 p i j) - (v40 (ix2 i j) - Ideal.ofBits .f32 0x3F800000#32 * v17 (ix2 i j))))
            * (GramLoss.bit (v42 (ix2 i j)) * (v39 (ix3 p i j) - (v40 (ix2 i j) - Ideal.ofBits .f32 0x3F800000#32 * v17 (ix2 i j))))) := by
  unfold k0_pay1
  simp only [cast_out, sqrt_apply]
  refine congrArg Ideal.sqrt ?_
  refine (sum_axis1_512 _ _ _ _ p).trans ?_
  refine Finset.sum_congr rfl fun i _ => ?_
  refine (sum_axis2_512 _ _ _ _ p i).trans ?_
  refine Finset.sum_congr rfl fun j _ => ?_
  simp only [mulf_apply, subf_apply, bcast_mat, cast_mat, sitofp_apply, extui_apply, broadcast_apply,
    GramLoss.sitofp_setWidth_bit]
  rfl

/-! ## The stored value is the item's value -/

/-- The comparison of the matrix with zero, at `(i, j)`, widened and converted, is the weight `wgt`; with the kernel
    matrix `kd` and the diagonal's indicator `eye` in place, the product under the square is `diff`. -/
theorem diff_apply (x0 : Vec Ideal S8x512x256 .f32) (x1 : Vec Ideal S512x512 .f32) (p : Fin 8) (i j : Fin 512) :
    GramLoss.bit (k0_pay4 (F := Ideal) x1 (ix2 i j))
        * (k0_pay3 (F := Ideal) x0 (ix3 p i j)
            - (x1 (ix2 i j) - Ideal.ofBits .f32 0x3F800000#32 * k0_pay2 (F := Ideal) (ix2 i j)))
      = GramLoss.diff (fun i k => x0 (ix3 p i k)) (fun i j => x1 (ix2 i j)) i j := by
  rw [pay3_apply x0 p i j, eye_apply i j]
  rfl

theorem payload_numer (x0 : Vec Ideal S8x512x256 .f32) (x1 : Vec Ideal S512x512 .f32) (p : Fin 8) (u : Fin 1) :
    k0_pay1 (F := Ideal) (k0_pay2 (F := Ideal)) (k0_pay3 (F := Ideal) x0) x1 (k0_pay4 (F := Ideal) x1) (ix2 p u)
      = Cert.GramLoss.numer (fun i k => x0 (ix3 p i k)) (fun i j => x1 (ix2 i j)) := by
  refine (pay1_apply (k0_pay2 (F := Ideal)) (k0_pay3 (F := Ideal) x0) x1 (k0_pay4 (F := Ideal) x1) p u).trans ?_
  unfold GramLoss.numer
  refine congrArg Ideal.sqrt ?_
  refine Finset.sum_congr rfl fun i _ => Finset.sum_congr rfl fun j _ => ?_
  exact congrArg₂ (· * ·) (diff_apply x0 x1 p i j) (diff_apply x0 x1 p i j)

end Cert.GramLoss.KernelItem

end
-- ==== Proof.KernelValue.lean ====
/-
  The idealized kernel's run, read as values.

  The region's output array has one row per batch item; grid point `t` writes rows `8t … 8t + 7`, and row
  `8t + p` holds the item's value `numer` of rows `r`, `k ↦ d[8t + p, r, k]` of the first argument and of the
  whole second argument `S`: so after the run the array is ONE function `G` of the two arguments. The host
  lines after the region turn that column into the scalar result: twice each item's value, divided by the
  Frobenius norm of the indicator of `S > 0` less the identity, summed over the items.
-/
import proofs.«122986_j29343216566713_2_alg».proof.Proof.Spec
import proofs.«122986_j29343216566713_2_alg».proof.Proof.KernelItem
import proofs.«122986_j29343216566713_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The output array as one function of the arguments -/

/-- Row `i 0` of the output column: the item's value of that item's rows of `a0` and of the matrix `a1`. -/
def G (a0 : S128x512x256.Idx → EReal) (a1 : S512x512.Idx → EReal) : S128x1.Idx → EReal :=
  fun i => Cert.GramLoss.numer (fun r k => a0 (ix3 (⟨(i 0).val, (i 0).isLt⟩ : Fin 128) r k)) (fun r s => a1 (ix2 r s))

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored block, row by row, of the blocks it loaded. -/
theorem body_value (x0 : Vec Ideal S8x512x256 .f32) (x1 : Vec Ideal S512x512 .f32) (j : S8x1.Idx) :
    k0_pay1 (F := Ideal) (k0_pay2 (F := Ideal)) (k0_pay3 (F := Ideal) x0) x1 (k0_pay4 (F := Ideal) x1) j
      = Cert.GramLoss.numer (fun r k => x0 (ix3 (⟨(j 0).val, (j 0).isLt⟩ : Fin 8) r k)) (fun r s => x1 (ix2 r s)) := by
  obtain ⟨p, u, rfl⟩ : ∃ (p : Fin 8) (u : Fin 1), j = ix2 p u := ⟨j 0, j 1, eq_ix2 j⟩
  exact Cert.GramLoss.KernelItem.payload_numer x0 x1 p u

/-- The printed index maps over the grid: the first argument's block moves with the output's along the item axis
    and sits at the origin of its other two axes; the matrix is read whole at every point. -/
theorem idx_facts : ∀ t : Fin cfg0.N, win0_0.index t (0 : Fin 3) = win0_2.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Every block of rows is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point `t` writes back is block `t` of `G` of the arguments as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold out0_2
  rw [View.canon_unit_zero hz2]
  simp only [View.ld_unit_zero (S := S8x512x256) hz3, View.ld_unit_zero (S := S512x512) hz2]
  obtain ⟨e0, e1, e2, e3, e4, e5, e6⟩ := idx_facts t
  funext j
  show k0_pay1 (F := Ideal) (k0_pay2 (F := Ideal)) (k0_pay3 (F := Ideal) (iblk m c 0 t)) (iblk m c 1 t) (k0_pay4 (F := Ideal) (iblk m c 1 t)) j
      = G (V m c main_arg0) (V m c main_arg1) (((cfg0.win 2).blk t).view.emb j)
  refine (body_value (iblk m c 0 t) (iblk m c 1 t) j).trans ?_
  unfold G
  refine congr (congrArg Cert.GramLoss.numer (funext fun r => funext fun k => ?_)) (funext fun r => funext fun s => ?_)
  · show V m c main_arg0 (((cfg0.win 0).blk t).view.emb (ix3 (⟨(j 0).val, (j 0).isLt⟩ : Fin 8) r k)) = V m c main_arg0 _
    refine congrArg (V m c main_arg0) (funext fun a => Fin.ext ?_)
    match a with
    | ⟨0, _⟩ => show win0_0.index t (0 : Fin 3) * 8 + 1 * (j 0).val = win0_2.index t (0 : Fin 2) * 8 + 1 * (j 0).val; omega
    | ⟨1, _⟩ => show win0_0.index t (1 : Fin 3) * 512 + 1 * r.val = r.val; omega
    | ⟨2, _⟩ => show win0_0.index t (2 : Fin 3) * 256 + 1 * k.val = k.val; omega
  · show V m c main_arg1 (((cfg0.win 1).blk t).view.emb (ix2 r s)) = V m c main_arg1 _
    refine congrArg (V m c main_arg1) (funext fun a => Fin.ext ?_)
    match a with
    | ⟨0, _⟩ => show win0_1.index t (0 : Fin 2) * 512 + 1 * r.val = r.val; omega
    | ⟨1, _⟩ => show win0_1.index t (1 : Fin 2) * 512 + 1 * s.val = s.val; omega

/-- An index of the column is in point `t`'s block iff each coordinate is in the block's range on its axis. -/
theorem mem_blk (t : Fin cfg0.N) (i : S128x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v0).slice (win0_2.rect t)).set ↔ _
  rw [View.set_slice_whole, Rect.mem_set_unit]
  exact Iff.rfl

/-- Every row is in the block of the point that handles its group of eight. -/
theorem cover (i : S128x1.Idx) : ∃ t : Fin cfg0.N, (cfg0.win 2).flush t = true ∧ i ∈ ((cfg0.win 2).blk t).view.set := by
  have hi0 : (i 0).val < 128 := (i 0).isLt
  have hi1 : (i 1).val < 1 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1 ≤ (i 1).val ∧ (i 1).val < win0_2.index t (1 : Fin 2) * 1 + 1; omega

/-- The output array after the run is `G` of the arguments as launched. -/
theorem final (c : Dev nD) : (dats m 0 c).arrAt 2 cfg0.N
    = G (m ((c : Thread nD τ).loc main_arg0)) (m ((c : Thread nD τ).loc main_arg1)) :=
  (dats m 0 c).arrAt_eq_of_cover 2 (G (V m c main_arg0) (V m c main_arg1)) (fun t _ => flushed_eq m c t) cover

end Cert.KernelIdeal.RunValue

end
-- ==== Proof.KernelRun.lean ====
/-
  The idealized kernel's run: the scalar result after the host lines that follow the region.
-/
import proofs.«122986_j29343216566713_2_alg».proof.Proof.Spec
import proofs.«122986_j29343216566713_2_alg».proof.Proof.Tail
import proofs.«122986_j29343216566713_2_alg».proof.Proof.KernelValue
import proofs.«122986_j29343216566713_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The scalar result's buffer is none of the region's arrays. -/
theorem v17_rest : main_v17 ∈ Pipeline.restRefs sig (cfgs 0).spec :=
  Pipeline.mem_restRefs_of main_v17 rfl (by decide)

/-- The output column, reshaped to a vector, is the column of per-item values. -/
theorem column_eq (a0 : S128x512x256.Idx → EReal) (a1 : S512x512.Idx → EReal) :
    Cert.GramLoss.column a0 a1 = fun i => shapeCast S128 (G a0 a1) shapeCasts_S128x1_S128 i := by
  funext i
  refine Eq.symm ((shapeCast_apply (G a0 a1) shapeCasts_S128x1_S128 i (ix2 (⟨(i 0).val, (i 0).isLt⟩ : Fin 128) (0 : Fin 1)) ?_).trans rfl)
  rw [Shape.rowMajor_val_two, Shape.rowMajor_val_one]
  show (i 0).val * 1 + 0 = (i 0).val
  omega

/-- The contents the region leaves, read at the output window's array: what the run computes for it. -/
theorem arr_out (c : Dev nD) :
    Pipeline.withArrays spec0 c (V0 m c) (fun w => (dats m 0 c).arrAt w cfg0.N) (Proc.devRef .tc (Pipeline.arrRef spec0 2))
      = (dats m 0 c).arrAt 2 cfg0.N :=
  Pipeline.withArrays_arr spec0 launch0.win.arr_inj c _ _ 2

/-- The same at the matrix window's array. -/
theorem arr_mat (c : Dev nD) :
    Pipeline.withArrays spec0 c (V0 m c) (fun w => (dats m 0 c).arrAt w cfg0.N) (Proc.devRef .tc (Pipeline.arrRef spec0 1))
      = (dats m 0 c).arrAt 1 cfg0.N :=
  Pipeline.withArrays_arr spec0 launch0.win.arr_inj c _ _ 1

/-- An input window's array ends as it was launched. -/
theorem arr_mat_in (c : Dev nD) : (dats m 0 c).arrAt 1 cfg0.N = m ((c : Thread nD τ).loc main_arg1) :=
  ((dats m 0 c).arrAt_in 1 rfl _).trans ((A_eq m c 1).trans (V_main_arg1 m c))

/-- After the region, the output column's buffer holds `G` of the arguments as launched … -/
theorem arr_out' (c : Dev nD) :
    Pipeline.withArrays (cfgs 0).spec c (V0 m c) (fun w => (dats m 0 c).arrAt w (cfgs 0).N) (Proc.devRef .tc main_v0)
      = G (m ((c : Thread nD τ).loc main_arg0)) (m ((c : Thread nD τ).loc main_arg1)) :=
  (arr_out m c).trans (final m c)

/-- … and the matrix argument's buffer the matrix as launched. -/
theorem arr_mat' (c : Dev nD) :
    Pipeline.withArrays (cfgs 0).spec c (V0 m c) (fun w => (dats m 0 c).arrAt w (cfgs 0).N) (Proc.devRef .tc main_arg1)
      = m ((c : Thread nD τ).loc main_arg1) :=
  (arr_mat m c).trans (arr_mat_in m c)

/-- Lines run one stretch after another: the contents after the concatenation are those after the second stretch
    from the contents after the first. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-! ## The three stretches of host lines, each from arbitrary contents -/

/-- The first stretch leaves the output column reshaped to a vector … -/
theorem stretch1_vec (W : Valuation τ sig (Elt Ideal)) :
    StableHlo.after (hostOps1 (F := Ideal)) W (Proc.devRef .tc main_v1)
      = fun i => shapeCast S128 (W (Proc.devRef .tc main_v0)) shapeCasts_S128x1_S128 i := by
  simp only [hostOps1]
  after_results
  rfl

/-- … and the weight matrix less the identity, of the matrix argument. -/
theorem stretch1_mat (W : Valuation τ sig (Elt Ideal)) :
    StableHlo.after (hostOps1 (F := Ideal)) W (Proc.devRef .tc main_v11)
      = Cert.GramLoss.offDiag bcast_S_S512x512 (W (Proc.devRef .tc main_arg1)) := by
  simp only [hostOps1]
  after_results
  rfl

/-- The second stretch (the norm's lines) leaves the Frobenius norm of the matrix it is given … -/
theorem stretch2_norm (W : Valuation τ sig (Elt Ideal)) :
    StableHlo.after (hostOps1_1 (F := Ideal)) W (Proc.devRef .tc main_v12)
      = Cert.GramLoss.frob reducesTo_S512x512_S_d0_1 h_S_ (W (Proc.devRef .tc main_v11)) := by
  simp only [hostOps1_1]
  after_results
  rfl

/-- … and does not touch the vector. -/
theorem stretch2_vec (W : Valuation τ sig (Elt Ideal)) :
    StableHlo.after (hostOps1_1 (F := Ideal)) W (Proc.devRef .tc main_v1) = W (Proc.devRef .tc main_v1) := by
  simp only [hostOps1_1]
  after_results

/-- The third stretch leaves twice the vector over the norm, summed. -/
theorem stretch3 (W : Valuation τ sig (Elt Ideal)) :
    StableHlo.after (hostOps1_2 (F := Ideal)) W (Proc.devRef .tc main_v17)
      = Cert.GramLoss.scaledSum bcast_S_S128 reducesTo_S128_S_d0 h_S_ (W (Proc.devRef .tc main_v1)) (W (Proc.devRef .tc main_v12)) := by
  simp only [hostOps1_2]
  after_results
  rfl

/-! ## The result after the host lines -/

/-- After the host lines that follow the region, the result buffer holds the shared tail of the column of per-item
    values of the arguments as launched. -/
theorem tail_value (c : Dev nD) :
    Pipeline.afterTail₀ cfgs (dats m) 0 (V0 m) [hostOps1, hostOps1_1, hostOps1_2] c main_v17
      = Cert.GramLoss.tail bcast_S_S512x512 bcast_S_S128 reducesTo_S512x512_S_d0_1 reducesTo_S128_S_d0 h_S_
          (Cert.GramLoss.column (m ((c : Thread nD τ).loc main_arg0)) (m ((c : Thread nD τ).loc main_arg1))) (m ((c : Thread nD τ).loc main_arg1)) := by
  unfold Pipeline.afterTail₀
  rw [show ([hostOps1, hostOps1_1, hostOps1_2] : List (List (HloOp τ sig (Elt Ideal)))).flatten = hostOps1 ++ (hostOps1_1 ++ hostOps1_2) from by
    simp only [List.flatten_cons, List.flatten_nil, List.append_nil]]
  rw [after_append, after_append, stretch3, stretch2_norm, stretch2_vec, stretch1_vec, stretch1_mat, arr_out', arr_mat', ← column_eq]
  rfl

/-- Every weakly fair execution of the idealized kernel's program terminates with the result at the shared tail of the
    column of per-item values of the arguments, and the arguments unchanged. -/
theorem run : θ_run defs (onTc (τ := τ) (main (F := Ideal))) ⟨m, fun _ => 0, ρ⟩ fun r => ∀ c : Dev nD,
      r.2.mem ((c : Thread nD τ).loc main_v17)
        = Cert.GramLoss.tail bcast_S_S512x512 bcast_S_S128 reducesTo_S512x512_S_d0_1 reducesTo_S128_S_d0 h_S_
            (Cert.GramLoss.column (m ((c : Thread nD τ).loc main_arg0)) (m ((c : Thread nD τ).loc main_arg1))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v17 v17_rest).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.LibSumIdx3.lean ====
/-
  Library-only lemmas: a sum over a rank-3 index set as the triple sum over its coordinates, and the host's float sum over
  the LAST TWO axes of a rank-3 array read at an index, at the extended reals, for any extents.

  * `idxEquiv3`, `sum_idx3`: `[n0, n1, n2]`'s index set is `Fin n0 × Fin n1 × Fin n2`, so `∑ i, f i = ∑ a, ∑ b, ∑ c, f (ix3 a b c)`
    in any additive commutative monoid;
  * `drop_ix3_eq_iff`: dropping axes 1 and 2 of the index `(a, i, j)` gives the index `b` of the result exactly when `a = b`;
  * `hostReduceAdd_axes12`: `Ideal.hostReduceAdd` over axes `[1, 2]` of a `[n0, n1, n2]` array into `[n0]`, at `b`, is the
    initial value plus `∑ i, ∑ j` of the operand at `(b, i, j)` — a sum over two axes at once is the iterated sum.
-/
import Idealize.ShloMosaic.PureOps.Ideal
import Idealize.ShloMosaic.PureOps.Ideal.Laws
import Idealize.ShloMosaic.PureOps.Reduce
import Idealize.ShloMosaic.Lib.ValueIdx

noncomputable section

namespace Cert.Lib.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the last two axes of an index `(a, i, j)` leaves the first coordinate `a`: the dropped index is `b` exactly
    when `a = b`. -/
theorem drop_ix3_eq_iff {n0 n1 n2 : Nat} (h : (⟨3, ![n0, n1, n2]⟩ : Shape).ReducesTo [1, 2] ⟨1, ![n0]⟩)
    (a b : Fin n0) (i : Fin n1) (j : Fin n2) :
    h.drop (ix3 a i j) = ix1 b ↔ a = b := by
  have hv : ((h.drop (ix3 a i j) 0 : Fin _) : Nat) = a.val :=
    (Shape.ReducesTo.drop_apply_val h (ix3 a i j) 0).trans rfl
  constructor
  · intro e
    apply Fin.ext
    rw [← hv, e]
    rfl
  · intro e
    subst e
    funext d
    match d with
    | ⟨0, _⟩ => exact Fin.ext hv

/-- The host's float sum over the last two axes, at `b`: the initial value plus the double sum, middle axis first, of the
    operand at `(b, i, j)`. -/
theorem hostReduceAdd_axes12 {n0 n1 n2 : Nat} (y : (⟨3, ![n0, n1, n2]⟩ : Shape).Idx → EReal) (init : EReal)
    (h : (⟨3, ![n0, n1, n2]⟩ : Shape).ReducesTo [1, 2] ⟨1, ![n0]⟩) (b : Fin n0) :
    Ideal.hostReduceAdd h y init (ix1 b) = init + ∑ i : Fin n1, ∑ j : Fin n2, y (ix3 b i j) := by
  unfold Ideal.hostReduceAdd
  refine congrArg (init + ·) ?_
  rw [Finset.sum_filter, sum_idx3, Finset.sum_eq_single b]
  · refine Finset.sum_congr rfl fun i _ => Finset.sum_congr rfl fun j _ => ?_
    rw [if_pos ((drop_ix3_eq_iff h b b i j).mpr rfl)]
  · intro a _ hab
    refine Finset.sum_eq_zero fun i _ => Finset.sum_eq_zero fun j _ => ?_
    rw [if_neg (fun e => hab ((drop_ix3_eq_iff h a b i j).mp e))]
  · intro hb
    exact absurd (Finset.mem_univ b) hb

end Cert.Lib.SumIdx3

end
-- ==== Proof.RefItem.lean ====
/-
  The reference's per-item stage (the square root of the sum over both matrix axes) at item `b` is the
  item's value `numer` of that item's rows.
-/
import proofs.«122986_j29343216566713_2_alg».proof.Proof.Spec
import proofs.«122986_j29343216566713_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«122986_j29343216566713_2_alg».proof.Proof.LibSumIdx3

noncomputable section

namespace Cert.GramLoss.RefItem

open Idealize.ShloMosaic Idealize.ShloMosaic.ValueIdx Cert.ReferenceIdeal Cert.ReferenceIdeal.Read

/-! ## The sum over the two matrix axes -/

/-- The host's sum over both matrix axes, at item `b`: the initial value plus the double sum, rows first, of the
    operand over that item's matrix. -/
theorem hostReduceAdd_item (y : S128x512x512.Idx → EReal) (init : EReal)
    (h : S128x512x512.ReducesTo [1, 2] S128) (b : Fin 128) :
    Ideal.hostReduceAdd h y init (ix1 b) = init + ∑ i : Fin 512, ∑ j : Fin 512, y (ix3 b i j) :=
  Cert.Lib.SumIdx3.hostReduceAdd_axes12 y init h b

/-! ## The reference's stages at the coordinates of one cell

Each lemma reads one named quantity of the specification off the reference's stages at an index built from the
item `b` and the cell's coordinates `i`, `j`: the stage's operations are read at the index, the layout operations'
composed index maps are identified with the coordinates, and what is left is the specification's definition. -/

/-- Adding the zero word changes nothing. -/
theorem addi_zero (x : BitVec 32) : IntOp.addi x 0#32 = x := BitVec.add_zero x

/-- The diagonal indicator: the row number plus zero compared with the column number. -/
theorem eye_apply (i j : Fin 512) : val_main_v5 (F := Ideal) (ix2 i j) = eye i j := by
  rw [val_main_v5_apply, val_main_v4_apply, val_main_v3_apply, val_main_v0_apply, val_main_v1_apply,
    val_main_v2_apply, val_main_c_apply, addi_zero]
  rfl

section Stages

variable (x0 : (⟨S128x512x256, .f32⟩ : BufTy).Contents (Elt Ideal))
  (x1 : (⟨S512x512, .f32⟩ : BufTy).Contents (Elt Ideal))

/-- The summed axis's coordinate inserted after `(b, i)`. -/
theorem idx_v7 (b : Fin 128) (i : Fin 512) (k : Fin 256) : idx_main_v7 (ix2 b i) k = ix3 b i k :=
  funext fun a => Fin.ext (by match a with | ⟨0, _⟩ => rfl | ⟨1, _⟩ => rfl | ⟨2, _⟩ => rfl)

/-- The squared norm of row `i` of item `b`. -/
theorem n2_apply (b : Fin 128) (i : Fin 512) :
    val_main_v7 (F := Ideal) x0 (ix2 b i) = n2 (fun i k => x0 (ix3 b i k)) i := by
  rw [val_main_v7_apply, val_main_cst_apply]
  simp only [val_main_v6_apply, idx_v7]
  show Ideal.ofBits .f32 0x00000000#32 + _ = _
  rw [Ideal.ofBits_zero_f32, zero_add]
  rfl

/-- The dot's left operand index at cell `(b, i, j)` is row `i` … -/
theorem lidx_v13 (b : Fin 128) (i j : Fin 512) (k : Fin 256) : lidx_main_v13 (ix3 b i j) k = ix3 b i k :=
  funext fun a => Fin.ext (by match a with | ⟨0, _⟩ => rfl | ⟨1, _⟩ => rfl | ⟨2, _⟩ => rfl)

/-- … and its right operand index is row `j`. -/
theorem ridx_v13 (b : Fin 128) (i j : Fin 512) (k : Fin 256) : ridx_main_v13 (ix3 b i j) k = ix3 b j k :=
  funext fun a => Fin.ext (by match a with | ⟨0, _⟩ => rfl | ⟨1, _⟩ => rfl | ⟨2, _⟩ => rfl)

/-- The Gram matrix of item `b`'s rows. -/
theorem gram_apply (b : Fin 128) (i j : Fin 512) :
    val_main_v13 (F := Ideal) x0 (ix3 b i j) = gram (fun i k => x0 (ix3 b i k)) i j := by
  rw [val_main_v13_apply]
  simp only [lidx_v13, ridx_v13]
  rfl

/-- The row norms broadcast along the columns are read at `(b, i)` … -/
theorem idx_v10 (b : Fin 128) (i j : Fin 512) : idx_main_v8 (idx_main_v10 (ix3 b i j)) = ix2 b i :=
  funext fun a => Fin.ext (by match a with | ⟨0, _⟩ => rfl | ⟨1, _⟩ => rfl)

/-- … and broadcast along the rows at `(b, j)`. -/
theorem idx_v11 (b : Fin 128) (i j : Fin 512) : idx_main_v9 (idx_main_v11 (ix3 b i j)) = ix2 b j :=
  funext fun a => Fin.ext (by match a with | ⟨0, _⟩ => rfl | ⟨1, _⟩ => rfl)

/-- A matrix broadcast over the items is read at `(i, j)`. -/
theorem idx_v22 (b : Fin 128) (i j : Fin 512) : idx_main_v21 (idx_main_v22 (ix3 b i j)) = ix2 i j :=
  funext fun a => Fin.ext (by match a with | ⟨0, _⟩ => rfl | ⟨1, _⟩ => rfl)

/-- The clamped squared distance, zeroed on the diagonal. -/
theorem sqd_apply (b : Fin 128) (i j : Fin 512) :
    val_main_v23 (F := Ideal) x0 (ix3 b i j) = sqd (fun i k => x0 (ix3 b i k)) i j := by
  rw [val_main_v23_apply, val_main_v18_apply, val_main_v16_apply, val_main_v12_apply, val_main_v10_apply,
    val_main_v8_apply, val_main_v11_apply, val_main_v9_apply, val_main_v15_apply, val_main_v14_apply,
    val_main_cst_0_apply, val_main_v17_apply, val_main_cst_1_apply, val_main_v22_apply, val_main_v21_apply,
    val_main_v20_apply, val_main_v19_apply, val_main_cst_2_apply, idx_v10, idx_v11, idx_v22,
    n2_apply, n2_apply, gram_apply, eye_apply]
  rfl

/-- The other matrices broadcast over the items are read at `(i, j)` too. -/
theorem idx_v42 (b : Fin 128) (i j : Fin 512) : idx_main_v41 (idx_main_v42 (ix3 b i j)) = ix2 i j :=
  funext fun a => Fin.ext (by match a with | ⟨0, _⟩ => rfl | ⟨1, _⟩ => rfl)

theorem idx_v48 (b : Fin 128) (i j : Fin 512) : idx_main_v47 (idx_main_v48 (ix3 b i j)) = ix2 i j :=
  funext fun a => Fin.ext (by match a with | ⟨0, _⟩ => rfl | ⟨1, _⟩ => rfl)

theorem idx_v51 (b : Fin 128) (i j : Fin 512) : idx_main_v50 (idx_main_v51 (ix3 b i j)) = ix2 i j :=
  funext fun a => Fin.ext (by match a with | ⟨0, _⟩ => rfl | ⟨1, _⟩ => rfl)

/-- The guarded square root of the squared distance. -/
theorem dist_apply (b : Fin 128) (i j : Fin 512) :
    val_main_v30 (F := Ideal) x0 (ix3 b i j) = dist (fun i k => x0 (ix3 b i k)) i j := by
  rw [val_main_v30_apply, val_main_v25_apply, val_main_v24_apply, val_main_cst_3_apply, val_main_v29_apply,
    val_main_v28_apply, val_main_v27_apply, val_main_v26_apply, val_main_cst_4_apply, val_main_call0_v1_apply,
    val_main_call0_v0_apply, val_main_cst_5_apply, val_main_call1_v1_apply, val_main_call1_v0_apply,
    val_main_cst_6_apply, sqd_apply]
  rfl

/-- The exponential kernel of the distance, zeroed on the diagonal. -/
theorem kd_apply (b : Fin 128) (i j : Fin 512) :
    val_main_v43 (F := Ideal) x0 (ix3 b i j) = kd (fun i k => x0 (ix3 b i k)) i j := by
  rw [val_main_v43_apply, val_main_v33_apply, val_main_v32_apply, val_main_v31_apply, val_main_cst_7_apply,
    val_main_v42_apply, val_main_v41_apply, val_main_v40_apply, val_main_v39_apply, val_main_cst_9_apply,
    idx_v42, dist_apply, eye_apply]
  rfl

/-- The weight: the indicator of a positive similarity. -/
theorem wgt_apply (i j : Fin 512) :
    val_main_v36 (F := Ideal) x1 (ix2 i j) = wgt (fun i j => x1 (ix2 i j)) i j := by
  rw [val_main_v36_apply, val_main_v35_apply, val_main_v34_apply, val_main_cst_8_apply]
  rfl

/-- The weighted difference of the kernel matrix and the similarity matrix less the identity. -/
theorem diff_apply (b : Fin 128) (i j : Fin 512) :
    val_main_v52 (F := Ideal) x0 x1 (ix3 b i j)
      = diff (fun i k => x0 (ix3 b i k)) (fun i j => x1 (ix2 i j)) i j := by
  rw [val_main_v52_apply, val_main_v51_apply, val_main_v50_apply, val_main_v49_apply, val_main_v48_apply,
    val_main_v47_apply, val_main_v46_apply, val_main_v45_apply, val_main_v44_apply, val_main_cst_10_apply,
    idx_v51, idx_v48, wgt_apply, kd_apply, eye_apply]
  rfl

/-- Its square: the summand of the item's value. -/
theorem cell_apply (b : Fin 128) (i j : Fin 512) :
    val_main_v53 (F := Ideal) x0 x1 (ix3 b i j)
      = cell (fun i k => x0 (ix3 b i k)) (fun i j => x1 (ix2 i j)) i j := by
  rw [val_main_v53_apply, diff_apply]
  rfl

end Stages

/-- The reference's per-item stage at item `b`: the square root of the sum, over both matrix axes, of the squared
    weighted differences of that item, from the initial value zero. -/
theorem ref_numer (x0 : (⟨S128x512x256, .f32⟩ : BufTy).Contents (Elt Ideal)) (x1 : (⟨S512x512, .f32⟩ : BufTy).Contents (Elt Ideal)) (b : Fin 128) :
    val_main_v55 (F := Ideal) x0 x1 (ix1 b)
      = Cert.GramLoss.numer (fun i k => x0 (ix3 b i k)) (fun i j => x1 (ix2 i j)) := by
  rw [val_main_v55_apply]
  unfold val_main_v54
  generalize hy : val_main_v53 (F := Ideal) x0 x1 = y
  simp only [Host.reduceAdd, Ideal.hostReduceAdd_def]
  rw [hostReduceAdd_item, val_main_cst_11_apply]
  subst hy
  simp only [cell_apply]
  show Ideal.sqrt (Ideal.ofBits .f32 0x00000000#32 + _) = _
  rw [Ideal.ofBits_zero_f32, zero_add]
  rfl

end Cert.GramLoss.RefItem

end
-- ==== Proof.RefValue.lean ====
/-
  The reference's run, read as values: its scalar result is the shared host tail applied to the column of
  per-item values. The reference's last stages (twice the per-item square roots, over the norm of the weight
  matrix less the identity, summed) ARE that tail, term for term; the per-item stage is the item's value.
-/
import proofs.«122986_j29343216566713_2_alg».proof.Proof.Spec
import proofs.«122986_j29343216566713_2_alg».proof.Proof.Tail
import proofs.«122986_j29343216566713_2_alg».proof.Proof.RefItem
import proofs.«122986_j29343216566713_2_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's per-item stage is the column of per-item values. -/
theorem column_eq (x0 : (⟨S128x512x256, .f32⟩ : BufTy).Contents (Elt Ideal)) (x1 : (⟨S512x512, .f32⟩ : BufTy).Contents (Elt Ideal)) :
    val_main_v55 (F := Ideal) x0 x1 = Cert.GramLoss.column x0 x1 := by
  funext b
  obtain ⟨q, rfl⟩ : ∃ q : Fin 128, b = ix1 q := ⟨b 0, eq_ix1 b⟩
  exact Cert.GramLoss.RefItem.ref_numer x0 x1 q

/-- The reference's result stage is the shared tail of the column. -/
theorem result_eq (x0 : (⟨S128x512x256, .f32⟩ : BufTy).Contents (Elt Ideal)) (x1 : (⟨S512x512, .f32⟩ : BufTy).Contents (Elt Ideal)) :
    val_main_v60 (F := Ideal) x0 x1
      = Cert.GramLoss.tail bcast_S_S512x512 bcast_S_S128 reducesTo_S512x512_S_d0_1 reducesTo_S128_S_d0 h_S_
          (Cert.GramLoss.column x0 x1) x1 := by
  rw [← column_eq x0 x1]
  rfl

end Cert.ReferenceIdeal.RefValue

end
-- ==== Proof.lean ====
/-
  The kernel against its reference, at the extended reals.

  For each of the 128 batch items the kernel computes, inside the region, the Frobenius norm of the weighted
  difference between the item's exponential distance kernel and the similarity matrix less the identity — the
  squared distances from the rows' norms and their Gram matrix, the Gram matrix a product of the rows rounded to
  a narrower format, which at the extended reals is the product itself — summing the squares over the columns and
  then over the rows; the reference computes the same per-item quantity on the host with one sum over both matrix
  axes, a sum over pairs being the iterated sum. Both programs then apply the same host lines to the column of
  per-item values: twice the column over the norm of the weight matrix less the identity, summed. So both
  results are one function of the arguments, `tail (column d S) S`; no finiteness of the inputs is used.
  The kernel's run is read off its generated frame run (the output column block by block, then the host lines after
  the region); the reference's from its generated run and the stage-by-stage readings of it.
-/
import proofs.«122986_j29343216566713_2_alg».proof.Defs
import proofs.«122986_j29343216566713_2_alg».proof.Proof.Gen.Kernel
import proofs.«122986_j29343216566713_2_alg».proof.Proof.Gen.Kernel.Skeleton
import proofs.«122986_j29343216566713_2_alg».proof.Proof.Gen.Kernel.Launch
import proofs.«122986_j29343216566713_2_alg».proof.Proof.Gen.Kernel.Points
import proofs.«122986_j29343216566713_2_alg».proof.Proof.Gen.Kernel.Frame
import proofs.«122986_j29343216566713_2_alg».proof.Proof.Gen.KernelIdeal
import proofs.«122986_j29343216566713_2_alg».proof.Proof.Gen.KernelIdeal.Skeleton
import proofs.«122986_j29343216566713_2_alg».proof.Proof.Gen.KernelIdeal.Launch
import proofs.«122986_j29343216566713_2_alg».proof.Proof.Gen.KernelIdeal.Points
import proofs.«122986_j29343216566713_2_alg».proof.Proof.Gen.KernelIdeal.Frame
import proofs.«122986_j29343216566713_2_alg».proof.Proof.Gen.ReferenceIdeal
import proofs.«122986_j29343216566713_2_alg».proof.Proof.Gen.ReferenceIdeal.Run
import proofs.«122986_j29343216566713_2_alg».proof.Proof.Gen.ReferenceIdeal.Read
import proofs.«122986_j29343216566713_2_alg».proof.Proof.Gen.Pre_finite_inputs
import proofs.«122986_j29343216566713_2_alg».proof.Proof.Tail
import proofs.«122986_j29343216566713_2_alg».proof.Proof.KernelRun
import proofs.«122986_j29343216566713_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the shared tail of the column of per-item values of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
